-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S1 : Shape := ⟨1, ![1]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1 : S_.BroadcastsInDim S1 (![] : Fin 0 → Fin S1.rank)
  reducesTo_S1_S_d0 : S1.ReducesTo [0] S_
  reducesTo_S8192x512_S8192_d1 : S8192x512.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : FVec F S8192 .f32) : IVec S_ 1 :=
  let main_cst_5 : FVec F S_ .f32 := constant S_ .f32 0x00000000#32
  let main_v17 : FVec F S8192 .f32 := broadcastInDim S8192 ![] bcast_S_S8192 main_cst_5
  let main_v18 : IVec S8192 1 := cmpf .ogt main_v16 main_v17
  let main_c_6 : IVec S_ 1 := constantI S_ 1 1#1
  let main_v19 : IVec S_ 1 := (fun x v => Host.reduce IntOp.andi x v reducesTo_S8192_S_d0 h_S_) main_v18 main_c_6
  let main_v20 : IVec S_ 1 := andi main_v13 main_v19
  main_v20

def fn {F : FTy → Type} [FloatOps F] (main_arg0 : FVec F S8192x512 .f32) (main_arg1 : FVec F S8192x8192 .f32) (main_arg2 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S8192x512 .f32 := mulf main_arg0 main_arg0
  let main_cst_4 : FVec F S_ .f32 := constant S_ .f32 0x00000000#32
  let main_v15 : FVec F S8192 .f32 := (fun x v => Host.reduceAdd x v reducesTo_S8192x512_S8192_d1 h_S_) main_v14 main_cst_4
  let main_v16 : FVec F S8192 .f32 := Host.sqrt main_v15
  fn_part1 (F := F) main_v13 main_v16
-- ==== Kernel.lean ====
abbrev S8192x512 : Shape := ⟨2, ![8192, 512]⟩
abbrev S8192x8192 : Shape := ⟨2, ![8192, 8192]⟩
abbrev S1 : Shape := ⟨1, ![1]⟩
abbrev S_ : Shape := ⟨0, ![]⟩
abbrev S8192 : Shape := ⟨1, ![8192]⟩
abbrev S8192x1 : Shape := ⟨2, ![8192, 1]⟩
abbrev S16x1x128 : Shape := ⟨3, ![16, 1, 128]⟩
abbrev S512x512 : Shape := ⟨2, ![512, 512]⟩
abbrev S512x8192 : Shape := ⟨2, ![512, 8192]⟩
abbrev S1x1x128 : Shape := ⟨3, ![1, 1, 128]⟩
abbrev S1x512x8192 : Shape := ⟨3, ![1, 512, 8192]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 20
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S1, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S8192x512, .bf16⟩
  | .hbm, ⟨14, _⟩ => ⟨S16x1x128, .f32⟩
  | .hbm, ⟨15, _⟩ => ⟨S16x1x1, .f32⟩
  | .hbm, ⟨16, _⟩ => ⟨S16, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S512x8192, .f32⟩
  | .local _ .vmem, ⟨4, _⟩ => ⟨S512x8192, .f32⟩
  | .local _ .vmem, ⟨5, _⟩ => ⟨S1x1x128, .f32⟩
  | .local _ .vmem, ⟨6, _⟩ => ⟨S1x1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S8192x512_S8192_d1 : S8192x512.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  inb_S512x8192_S512x8192_0_0 : ∀ a, (![0, 0] : Fin 2 → Nat) a + S512x8192.size a ≤ S512x8192.size a
  h_S512x8192 : 0 < S512x8192.numel
  shapeCasts_S512x8192_S1x512x8192 : S512x8192.ShapeCasts S1x512x8192
  reduces_S1x512x8192_S1 : S1x512x8192.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  slices_S16x1x128_S16x1x1_0_0_0 : S16x1x128.Slices ![0, 0, 0] S16x1x1
  shapeCasts_S16x1x1_S16 : S16x1x1.ShapeCasts S16
  reducesTo_S16_S_d0 : S16.ReducesTo [0] S_
  dot_S512x512_S8192x512_S512x8192_1_1_0_0_n_n_wf : DotDims.WF S512x512 S8192x512 S512x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8192.size a ≤ S8192x8192.size a
  hwx0_2 : ∀ i : grid0.Coords, EltTy.bits .f32 = 32 ∨ (Rect.block (s := S8192x8192) S512x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)

variable [Facts₀]

def dot_S512x512_S8192x512_S512x8192_1_1_0_0_n_n : DotDims S512x512 S8192x512 S512x8192 where
  lhsContracting := [1]
  rhsContracting := [1]
  lhsNonContracting := [0]
  rhsNonContracting := [0]
  lhsBatch := []
  rhsBatch := []
  wf := dot_S512x512_S8192x512_S512x8192_1_1_0_0_n_n_wf

abbrev win0_0 : Pipeline.Window sig grid0 :=
  Pipeline.Window.ofSpec (Memref.whole main_v8) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S1 : Shape := ⟨1, ![1]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S1, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S_, .f32⟩
  | .hbm, ⟨17, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S_d0_1 : S8192x8192.ReducesTo [0, 1] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.KBody.lean ====
/-
  The kernel body at one grid point, and the pipeline's proof data.

  At point `t` the body reads three staged blocks whole — rows `512 t … 512 t + 511` of the normalised matrix, the
  whole normalised matrix, and the same 512 rows of the similarity matrix — and overwrites the one output block
  (1 × 1 × 128) with a single store whose value is a pure function of the three blocks read: the block product,
  multiplied entrywise by the similarity rows, summed to one number and repeated along the 128 lanes. So after the
  body the output's staging buffer holds that function of the three input blocks, whatever it held before, and
  the three inputs' buffers are as they were.

  The first two windows stage ONE array (the normalised matrix is passed twice): each holds half of the share of
  that array, which is enough to read it.
-/
import proofs.«173529_j70222715290004_2_alg».proof.Proof.Gen.Kernel.Launch
import proofs.«173529_j70222715290004_2_alg».proof.Proof.Gen.Kernel.Skeleton
import proofs.«173529_j70222715290004_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m ((c : Dev nD), b)
/-- and when the region is entered: the eleven host operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window whose
    index does not move is fetched once and keeps what it fetched), for any proof data on these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each block whole -/

abbrev rLhs : Rect S512x512 := Rect.unit (s := S512x512) ![0, 0] S512x512.size inb_S512x512_S512x512_0_0
abbrev rRhs : Rect S8192x512 := Rect.unit (s := S8192x512) ![0, 0] S8192x512.size inb_S8192x512_S8192x512_0_0
abbrev rSim : Rect S512x8192 := Rect.unit (s := S512x8192) ![0, 0] S512x8192.size inb_S512x8192_S512x8192_0_0
abbrev rOut : Rect S1x1x128 := Rect.unit (s := S1x1x128) ![0, 0, 0] S1x1x128.size inb_S1x1x128_S1x1x128_0_0_0

/-- The output window's staging buffer after the body, from the three input blocks: its one store. -/
def outBlock (x0 : Vec F S512x512 .bf16) (x1 : Vec F S8192x512 .bf16) (x2 : Vec F S512x8192 .f32) : Vec F S1x1x128 .f32 :=
  View.canon [⟨rOut, k0_pay1 (View.ld x0 rLhs) (View.ld x1 rRhs) (View.ld x2 rSim)⟩]

/-- The one store covers the buffer. -/
theorem coverOut (p0 : Vec F S1x1x128 .f32) (y : S1x1x128.Idx) :
    ∃ pc ∈ ([⟨rOut, p0⟩] : List (View.Piece (Elt F) S1x1x128 .f32)), y ∈ pc.1.set :=
  View.cover_of_tiled [⟨rOut, p0⟩] S1x1x128.size (by rfl) y

/-! ## The body's triple -/

set_option maxHeartbeats 1000000 in
/-- The body on whole staging memrefs, the inputs' at contents `x0 x1 x2` and the output's at anything, runs to the
    continuation holding the inputs' as they were and the output's at `outBlock x0 x1 x2`. -/
theorem sound_kernel (c : Dev nD) (E : Set ℕ) (i : grid0.Coords)
    (arg1 : Memref sig .tc .vmem S512x512 .bf16) (harg1 : arg1.IsWhole) (arg2 : Memref sig .tc .vmem S8192x512 .bf16) (harg2 : arg2.IsWhole)
    (arg3 : Memref sig .tc .vmem S512x8192 .f32) (harg3 : arg3.IsWhole) (arg4 : Memref sig .tc .vmem S1x1x128 .f32) (harg4 : arg4.IsWhole)
    (x0 : Vec F S512x512 .bf16) (x1 : Vec F S8192x512 .bf16) (x2 : Vec F S512x8192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__simloss_kernel i arg1 harg1 arg2 harg2 arg3 harg3 arg4 harg4) K := by
  simp only [cc0__simloss_kernel_eq_skeleton]; unfold cc0__simloss_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The pipeline's proof data -/

/-- The proof data on core `c`: the arrays as the region finds them; after the body each input's buffer at its block
    and the output's at `outBlock` of the three; the invariant the scoped buffers no window stages; nothing owed;
    the two windows on the normalised matrix hold half of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
/-
  The run of the whole program: eleven host operations (the row norms, their reciprocals, the rows scaled), one
  kernel region over the 16 row blocks, five host operations (the 16 partial sums taken out of the kernel's padded
  result, added, negated).

  Between the segments a core holds every unscoped buffer whole at a valuation. The region is entered from the
  valuation the first eleven operations leave; of it the three arrays the windows stage go to the pipeline — the
  normalised matrix split into two halves of its share, one per window that reads it — and every other buffer
  bypasses the region. It is left with the two halves joined again (no input array is written), the output array at
  what the 16 write-backs left, and the rest as it was: the valuation the last five operations start from. At the
  end the result buffer is read off the last valuation, and each argument, written by no operation, is as launched.
-/
import proofs.«173529_j70222715290004_2_alg».proof.Proof.KBody
import Idealize.ShloMosaic.Lib.Pipeline.Frame
import Idealize.ShloMosaic.Lib.Pipeline.Regions

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The certificate's ghost state is the pipeline library's alone. -/
abbrev EP : Emb (UR sig nD τ) (MT nD τ sig Unit (Elt F) ℕ (UR sig nD τ) ℕ) := emb₁

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none

/-- What rides beside the buffers through every segment: the core owes nothing. -/
abbrev R (c : Dev nD) : sProp 𝕄 := iprop(∃ W, owes (c : Thread nD τ) (0 : CellTallies nD τ sig Unit) W)

/-! ## The valuations between the segments -/

/-- When the region is left: the output array at what the write-backs left, every other buffer as the region found it. -/
def V₁ (c : Dev nD) : Valuation τ sig (Elt F) :=
  Function.update (StableHlo.after hostOps0 (V₀ m c)) (Proc.devRef .tc main_v9) ((dats m 0 c).arrAt 3 cfg0.N)

/-- At the end: the last five operations have run. -/
abbrev V₂ (c : Dev nD) : Valuation τ sig (Elt F) := StableHlo.after hostOps1 (V₁ m c)

theorem V₁_v9 (c : Dev nD) : V₁ m c (Proc.devRef .tc main_v9) = (dats m 0 c).arrAt 3 cfg0.N := by
  unfold V₁; rw [Function.update_self]

theorem V₁_of_ne (c : Dev nD) (b : Ref sig .tc) (hb : b ≠ main_v9) :
    V₁ m c (Proc.devRef .tc b) = V m c b := by
  unfold V₁; rw [Function.update_of_ne (StableHlo.devRef_ne_of_ne hb)]

/-! ## The windows' arrays, one by one -/

/-- The buffers behind the windows' arrays: three, the normalised matrix once. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v8) ↦{fullShare} W main_v8) ∗ (((c : Thread nD τ).loc main_arg1) ↦{fullShare} W main_arg1)
          ∗ (((c : Thread nD τ).loc main_v9) ↦{fullShare} W main_v9)) := by
  unfold Pipeline.arrBufs
  exact bigSep_eq_bigSepL_of_eq [main_v8, main_arg1, main_v9] (by decide) (by decide) _

/-- The pipeline's arrays: four windows, the first two on the normalised matrix at half its share each. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_v8) ↦{fullShare.left} G 0) ∗ (((c : Thread nD τ).loc main_v8) ↦{fullShare.right} G 1)
          ∗ (((c : Thread nD τ).loc main_arg1) ↦{fullShare} G 2) ∗ (((c : Thread nD τ).loc main_v9) ↦{fullShare} G 3)) := by
  unfold Dat.arrays
  rw [bigSep_W0, (arr_whole0 0).set_eq_univ, (arr_whole0 2).set_eq_univ, (arr_whole0 3).set_eq_univ]
  rfl

/-- An input array ends as the region found it. -/
theorem arrAt_0 (c : Dev nD) (n : ℕ) : (dats m 0 c).arrAt 0 n = V m c main_v8 := (dats m 0 c).arrAt_in 0 rfl n
theorem arrAt_1 (c : Dev nD) (n : ℕ) : (dats m 0 c).arrAt 1 n = V m c main_v8 := (dats m 0 c).arrAt_in 1 rfl n
theorem arrAt_2 (c : Dev nD) (n : ℕ) : (dats m 0 c).arrAt 2 n = V m c main_arg1 := (dats m 0 c).arrAt_in 2 rfl n

/-! ## No host operation writes an argument -/

theorem not_written0 (b : Ref sig .tc) (hb : b ≠ main_v0 ∧ b ≠ main_cst ∧ b ≠ main_v1 ∧ b ≠ main_v2 ∧ b ≠ main_cst_0 ∧ b ≠ main_v3 ∧ b ≠ main_v4
      ∧ b ≠ main_v5 ∧ b ≠ main_v6 ∧ b ≠ main_v7 ∧ b ≠ main_v8) :
    ∀ op ∈ (hostOps0 (F := F)), Proc.devRef .tc b ∉ op.writes := by
  obtain ⟨h0, h1, h2, h3, h4, h5, h6, h7, h8, h9, h10⟩ := hb
  intro op hop
  simp only [List.mem_cons, List.mem_nil_iff, or_false] at hop
  rcases hop with rfl | rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

theorem not_written1 (b : Ref sig .tc) (hb : b ≠ main_v10 ∧ b ≠ main_v11 ∧ b ≠ main_cst_1 ∧ b ≠ main_v12 ∧ b ≠ main_v13) :
    ∀ op ∈ (hostOps1 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, StableHlo.reshape_writes, Finset.mem_singleton] <;>
    exact StableHlo.devRef_ne_of_ne ‹_›

/-- An argument array is, at the end, as launched: neither stretch of host operations writes it and it is not the
    region's output. -/
theorem V₂_arg (c : Dev nD) (b : Ref sig .tc)
    (h0 : b ≠ main_v0 ∧ b ≠ main_cst ∧ b ≠ main_v1 ∧ b ≠ main_v2 ∧ b ≠ main_cst_0 ∧ b ≠ main_v3 ∧ b ≠ main_v4 ∧ b ≠ main_v5 ∧ b ≠ main_v6 ∧ b ≠ main_v7 ∧ b ≠ main_v8)
    (h9 : b ≠ main_v9) (h1 : b ≠ main_v10 ∧ b ≠ main_v11 ∧ b ≠ main_cst_1 ∧ b ≠ main_v12 ∧ b ≠ main_v13) :
    V₂ m c (Proc.devRef .tc b) = m ((c : Thread nD τ).loc b) :=
  (StableHlo.after_of_forall_not_mem (b := Proc.devRef .tc b) hostOps1 (V₁ m c) (not_written1 b h1)).trans
    ((V₁_of_ne m c b h9).trans (StableHlo.after_of_forall_not_mem (b := Proc.devRef .tc b) hostOps0 (V₀ m c) (not_written0 b h0)))

/-! ## The segments -/

/-- The buffers no window stages are untouched by the region. -/
theorem rest_V₁ (c : Dev nD) :
    (Pipeline.unscopedRest (Ix := Unit) (Name := ℕ) (U := UR sig nD τ) (Lvl := ℕ) spec0 c (fun b => V₁ m c b) : sProp 𝕄)
      = Pipeline.unscopedRest spec0 c (V m c) := by
  unfold Pipeline.unscopedRest
  refine bigSep_congr fun b hb => ?_
  have hne : b ≠ main_v9 := by
    rintro rfl
    exact absurd hb (by decide)
  beta_reduce
  rw [V₁_of_ne m c b hne]

/-- The first eleven host operations, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The last five. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V₁ m) R

set_option backward.isDefEq.respectTransparency.types false in
/-- The region: entered from what the first stretch left — the three staged arrays to the pipeline, the normalised
    matrix in two halves, everything else bypassing —, left with the halves joined and the output array written. -/
def reg0 : Pipeline.RegionSeg (pcfgs (F := F)) adm (dats m) () defs₀ 𝒱₀ L lv 0 where
  win := winFacts₀0
  block_pos := block_pos0
  stage_whole := stage_whole0
  K := PEmpty
  osem := fun k : PEmpty => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V₁ m c) ∗ R c)
  X c := iprop(emp)
  Y c := iprop(emp)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 (by decide) c (V m c), arrBufs_list, arrays_list]
    iintro ⟨⟨⟨⟨H8, H1, H9⟩, Hrest⟩, HO⟩, -, -⟩
    ihave H8' := (pointsTo_share (PosShare.mem_left_op_right fullShare)).1 $$ H8
    icases H8' with ⟨H8l, H8r⟩
    imodintro
    isplitl [H8l H8r H1 H9]
    · isplitl [H8l]; · iexact H8l
      isplitl [H8r]; · iexact H8r
      isplitl [H1]; · iexact H1
      iexact H9
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iassumption
  hout c := by
    rw [Pipeline.ownSems0_none,
      show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iassumption
  hexit c := by
    rw [arrays_list, arrAt_0, arrAt_1, arrAt_2,
      show StableHlo.held (c : Thread nD τ) (Pipeline.ucRefs τ sig) (V₁ m c) = unscopedBufs c (fun b => V₁ m c b) from (Pipeline.unscopedBufs_held c _).symm,
      Pipeline.unscopedBufs_split₀ cfgs 0 (by decide) c (fun b => V₁ m c b), arrBufs_list, rest_V₁,
      V₁_of_ne m c main_v8 (by decide), V₁_of_ne m c main_arg1 (by decide), V₁_v9]
    iintro ⟨⟨H8l, H8r, H1, H9⟩, HO, -, Hrest⟩
    imodintro
    isplitr [HO]
    · isplitl [H8l H8r H1 H9]
      · isplitl [H8l H8r]
        · iapply (pointsTo_share (PosShare.mem_left_op_right fullShare)).2
          isplitl [H8l] <;> iassumption
        isplitl [H1] <;> iassumption
      iexact Hrest
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-! ## The launch -/

/-- The launch element: the pipeline library's, at the staging cells. -/
def u₀ : UR sig nD τ := initOf (Pipeline.cells cfgs cellOf_inj) (Pipeline.launchToks cfgs cellOf_inj)

/-- The post of the run: the result buffer at the last valuation's contents, the three arguments as launched. -/
def QC : PUnit × MemSt nD τ sig (Elt F) → Prop := fun r =>
  ∀ c : Dev nD, r.2.mem ((c : Thread nD τ).loc main_v13) = V₂ m c (Proc.devRef .tc main_v13)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
/-- From any memory with zero counters every weakly fair execution of @main on the TensorCores terminates, nothing
    faulting, in a state with the result buffer at the last valuation's contents and the arguments unchanged. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₂ m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v13) = V₂ m c (Proc.devRef .tc main_v13)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      unfold StableHlo.held
      iintro ⟨Hh, HSI⟩
      ihave Hr := (pointsTo_read_all (Pipeline.ucRefs τ sig) (fun b => ((c : Thread nD τ).1, b)) (V₂ m c) s') $$ [Hh HSI]
      · isplitl [Hh] <;> iassumption
      icases Hr with ⟨%h, HSI⟩
      imodintro
      isplitr
      · ipureintro
        exact ⟨h (Proc.devRef .tc main_v13) (Finset.mem_filter.mpr ⟨StableHlo.devRef_mem_tcRefs main_v13, by decide⟩),
          (h (Proc.devRef .tc main_arg0) (Finset.mem_filter.mpr ⟨StableHlo.devRef_mem_tcRefs main_arg0, by decide⟩)).trans
            (V₂_arg m c main_arg0 (by decide) (by decide) (by decide)),
          (h (Proc.devRef .tc main_arg1) (Finset.mem_filter.mpr ⟨StableHlo.devRef_mem_tcRefs main_arg1, by decide⟩)).trans
            (V₂_arg m c main_arg1 (by decide) (by decide) (by decide)),
          (h (Proc.devRef .tc main_arg2) (Finset.mem_filter.mpr ⟨StableHlo.devRef_mem_tcRefs main_arg2, by decide⟩)).trans
            (V₂_arg m c main_arg2 (by decide) (by decide) (by decide))⟩
      · iexact HSI)
    (hQ := fun _ h => h)

end Cert.Kernel.Hand

end
-- ==== Proof.KIBody.lean ====
/-
  The kernel body at one grid point, and the pipeline's proof data.

  At point `t` the body reads three staged blocks whole — rows `512 t … 512 t + 511` of the normalised matrix, the
  whole normalised matrix, and the same 512 rows of the similarity matrix — and overwrites the one output block
  (1 × 1 × 128) with a single store whose value is a pure function of the three blocks read: the block product,
  multiplied entrywise by the similarity rows, summed to one number and repeated along the 128 lanes. So after the
  body the output's staging buffer holds that function of the three input blocks, whatever it held before, and
  the three inputs' buffers are as they were.

  The first two windows stage ONE array (the normalised matrix is passed twice): each holds half of the share of
  that array, which is enough to read it.
-/
import proofs.«173529_j70222715290004_2_alg».proof.Proof.Gen.KernelIdeal.Launch
import proofs.«173529_j70222715290004_2_alg».proof.Proof.Gen.KernelIdeal.Skeleton
import proofs.«173529_j70222715290004_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m ((c : Dev nD), b)
/-- and when the region is entered: the eleven host operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window whose
    index does not move is fetched once and keeps what it fetched), for any proof data on these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each block whole -/

abbrev rLhs : Rect S512x512 := Rect.unit (s := S512x512) ![0, 0] S512x512.size inb_S512x512_S512x512_0_0
abbrev rRhs : Rect S8192x512 := Rect.unit (s := S8192x512) ![0, 0] S8192x512.size inb_S8192x512_S8192x512_0_0
abbrev rSim : Rect S512x8192 := Rect.unit (s := S512x8192) ![0, 0] S512x8192.size inb_S512x8192_S512x8192_0_0
abbrev rOut : Rect S1x1x128 := Rect.unit (s := S1x1x128) ![0, 0, 0] S1x1x128.size inb_S1x1x128_S1x1x128_0_0_0

/-- The output window's staging buffer after the body, from the three input blocks: its one store. -/
def outBlock (x0 : Vec F S512x512 .bf16) (x1 : Vec F S8192x512 .bf16) (x2 : Vec F S512x8192 .f32) : Vec F S1x1x128 .f32 :=
  View.canon [⟨rOut, k0_pay1 (View.ld x0 rLhs) (View.ld x1 rRhs) (View.ld x2 rSim)⟩]

/-- The one store covers the buffer. -/
theorem coverOut (p0 : Vec F S1x1x128 .f32) (y : S1x1x128.Idx) :
    ∃ pc ∈ ([⟨rOut, p0⟩] : List (View.Piece (Elt F) S1x1x128 .f32)), y ∈ pc.1.set :=
  View.cover_of_tiled [⟨rOut, p0⟩] S1x1x128.size (by rfl) y

/-! ## The body's triple -/

set_option maxHeartbeats 1000000 in
/-- The body on whole staging memrefs, the inputs' at contents `x0 x1 x2` and the output's at anything, runs to the
    continuation holding the inputs' as they were and the output's at `outBlock x0 x1 x2`. -/
theorem sound_kernel (c : Dev nD) (E : Set ℕ) (i : grid0.Coords)
    (arg1 : Memref sig .tc .vmem S512x512 .bf16) (harg1 : arg1.IsWhole) (arg2 : Memref sig .tc .vmem S8192x512 .bf16) (harg2 : arg2.IsWhole)
    (arg3 : Memref sig .tc .vmem S512x8192 .f32) (harg3 : arg3.IsWhole) (arg4 : Memref sig .tc .vmem S1x1x128 .f32) (harg4 : arg4.IsWhole)
    (x0 : Vec F S512x512 .bf16) (x1 : Vec F S8192x512 .bf16) (x2 : Vec F S512x8192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__simloss_kernel i arg1 harg1 arg2 harg2 arg3 harg3 arg4 harg4) K := by
  simp only [cc0__simloss_kernel_eq_skeleton]; unfold cc0__simloss_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The pipeline's proof data -/

/-- The proof data on core `c`: the arrays as the region finds them; after the body each input's buffer at its block
    and the output's at `outBlock` of the three; the invariant the scoped buffers no window stages; nothing owed;
    the two windows on the normalised matrix hold half of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
/-
  The run of the whole program: eleven host operations (the row norms, their reciprocals, the rows scaled), one
  kernel region over the 16 row blocks, five host operations (the 16 partial sums taken out of the kernel's padded
  result, added, negated).

  Between the segments a core holds every unscoped buffer whole at a valuation. The region is entered from the
  valuation the first eleven operations leave; of it the three arrays the windows stage go to the pipeline — the
  normalised matrix split into two halves of its share, one per window that reads it — and every other buffer
  bypasses the region. It is left with the two halves joined again (no input array is written), the output array at
  what the 16 write-backs left, and the rest as it was: the valuation the last five operations start from. At the
  end the result buffer is read off the last valuation, and each argument, written by no operation, is as launched.
-/
import proofs.«173529_j70222715290004_2_alg».proof.Proof.KIBody
import Idealize.ShloMosaic.Lib.Pipeline.Frame
import Idealize.ShloMosaic.Lib.Pipeline.Regions

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The certificate's ghost state is the pipeline library's alone. -/
abbrev EP : Emb (UR sig nD τ) (MT nD τ sig Unit (Elt F) ℕ (UR sig nD τ) ℕ) := emb₁

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none

/-- What rides beside the buffers through every segment: the core owes nothing. -/
abbrev R (c : Dev nD) : sProp 𝕄 := iprop(∃ W, owes (c : Thread nD τ) (0 : CellTallies nD τ sig Unit) W)

/-! ## The valuations between the segments -/

/-- When the region is left: the output array at what the write-backs left, every other buffer as the region found it. -/
def V₁ (c : Dev nD) : Valuation τ sig (Elt F) :=
  Function.update (StableHlo.after hostOps0 (V₀ m c)) (Proc.devRef .tc main_v9) ((dats m 0 c).arrAt 3 cfg0.N)

/-- At the end: the last five operations have run. -/
abbrev V₂ (c : Dev nD) : Valuation τ sig (Elt F) := StableHlo.after hostOps1 (V₁ m c)

theorem V₁_v9 (c : Dev nD) : V₁ m c (Proc.devRef .tc main_v9) = (dats m 0 c).arrAt 3 cfg0.N := by
  unfold V₁; rw [Function.update_self]

theorem V₁_of_ne (c : Dev nD) (b : Ref sig .tc) (hb : b ≠ main_v9) :
    V₁ m c (Proc.devRef .tc b) = V m c b := by
  unfold V₁; rw [Function.update_of_ne (StableHlo.devRef_ne_of_ne hb)]

/-! ## The windows' arrays, one by one -/

/-- The buffers behind the windows' arrays: three, the normalised matrix once. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v8) ↦{fullShare} W main_v8) ∗ (((c : Thread nD τ).loc main_arg1) ↦{fullShare} W main_arg1)
          ∗ (((c : Thread nD τ).loc main_v9) ↦{fullShare} W main_v9)) := by
  unfold Pipeline.arrBufs
  exact bigSep_eq_bigSepL_of_eq [main_v8, main_arg1, main_v9] (by decide) (by decide) _

/-- The pipeline's arrays: four windows, the first two on the normalised matrix at half its share each. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_v8) ↦{fullShare.left} G 0) ∗ (((c : Thread nD τ).loc main_v8) ↦{fullShare.right} G 1)
          ∗ (((c : Thread nD τ).loc main_arg1) ↦{fullShare} G 2) ∗ (((c : Thread nD τ).loc main_v9) ↦{fullShare} G 3)) := by
  unfold Dat.arrays
  rw [bigSep_W0, (arr_whole0 0).set_eq_univ, (arr_whole0 2).set_eq_univ, (arr_whole0 3).set_eq_univ]
  rfl

/-- An input array ends as the region found it. -/
theorem arrAt_0 (c : Dev nD) (n : ℕ) : (dats m 0 c).arrAt 0 n = V m c main_v8 := (dats m 0 c).arrAt_in 0 rfl n
theorem arrAt_1 (c : Dev nD) (n : ℕ) : (dats m 0 c).arrAt 1 n = V m c main_v8 := (dats m 0 c).arrAt_in 1 rfl n
theorem arrAt_2 (c : Dev nD) (n : ℕ) : (dats m 0 c).arrAt 2 n = V m c main_arg1 := (dats m 0 c).arrAt_in 2 rfl n

/-! ## No host operation writes an argument -/

theorem not_written0 (b : Ref sig .tc) (hb : b ≠ main_v0 ∧ b ≠ main_cst ∧ b ≠ main_v1 ∧ b ≠ main_v2 ∧ b ≠ main_cst_0 ∧ b ≠ main_v3 ∧ b ≠ main_v4
      ∧ b ≠ main_v5 ∧ b ≠ main_v6 ∧ b ≠ main_v7 ∧ b ≠ main_v8) :
    ∀ op ∈ (hostOps0 (F := F)), Proc.devRef .tc b ∉ op.writes := by
  obtain ⟨h0, h1, h2, h3, h4, h5, h6, h7, h8, h9, h10⟩ := hb
  intro op hop
  simp only [List.mem_cons, List.mem_nil_iff, or_false] at hop
  rcases hop with rfl | rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

theorem not_written1 (b : Ref sig .tc) (hb : b ≠ main_v10 ∧ b ≠ main_v11 ∧ b ≠ main_cst_1 ∧ b ≠ main_v12 ∧ b ≠ main_v13) :
    ∀ op ∈ (hostOps1 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, StableHlo.reshape_writes, Finset.mem_singleton] <;>
    exact StableHlo.devRef_ne_of_ne ‹_›

/-- An argument array is, at the end, as launched: neither stretch of host operations writes it and it is not the
    region's output. -/
theorem V₂_arg (c : Dev nD) (b : Ref sig .tc)
    (h0 : b ≠ main_v0 ∧ b ≠ main_cst ∧ b ≠ main_v1 ∧ b ≠ main_v2 ∧ b ≠ main_cst_0 ∧ b ≠ main_v3 ∧ b ≠ main_v4 ∧ b ≠ main_v5 ∧ b ≠ main_v6 ∧ b ≠ main_v7 ∧ b ≠ main_v8)
    (h9 : b ≠ main_v9) (h1 : b ≠ main_v10 ∧ b ≠ main_v11 ∧ b ≠ main_cst_1 ∧ b ≠ main_v12 ∧ b ≠ main_v13) :
    V₂ m c (Proc.devRef .tc b) = m ((c : Thread nD τ).loc b) :=
  (StableHlo.after_of_forall_not_mem (b := Proc.devRef .tc b) hostOps1 (V₁ m c) (not_written1 b h1)).trans
    ((V₁_of_ne m c b h9).trans (StableHlo.after_of_forall_not_mem (b := Proc.devRef .tc b) hostOps0 (V₀ m c) (not_written0 b h0)))

/-! ## The segments -/

/-- The buffers no window stages are untouched by the region. -/
theorem rest_V₁ (c : Dev nD) :
    (Pipeline.unscopedRest (Ix := Unit) (Name := ℕ) (U := UR sig nD τ) (Lvl := ℕ) spec0 c (fun b => V₁ m c b) : sProp 𝕄)
      = Pipeline.unscopedRest spec0 c (V m c) := by
  unfold Pipeline.unscopedRest
  refine bigSep_congr fun b hb => ?_
  have hne : b ≠ main_v9 := by
    rintro rfl
    exact absurd hb (by decide)
  beta_reduce
  rw [V₁_of_ne m c b hne]

/-- The first eleven host operations, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The last five. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V₁ m) R

set_option backward.isDefEq.respectTransparency.types false in
/-- The region: entered from what the first stretch left — the three staged arrays to the pipeline, the normalised
    matrix in two halves, everything else bypassing —, left with the halves joined and the output array written. -/
def reg0 : Pipeline.RegionSeg (pcfgs (F := F)) adm (dats m) () defs₀ 𝒱₀ L lv 0 where
  win := winFacts₀0
  block_pos := block_pos0
  stage_whole := stage_whole0
  K := PEmpty
  osem := fun k : PEmpty => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V₁ m c) ∗ R c)
  X c := iprop(emp)
  Y c := iprop(emp)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 (by decide) c (V m c), arrBufs_list, arrays_list]
    iintro ⟨⟨⟨⟨H8, H1, H9⟩, Hrest⟩, HO⟩, -, -⟩
    ihave H8' := (pointsTo_share (PosShare.mem_left_op_right fullShare)).1 $$ H8
    icases H8' with ⟨H8l, H8r⟩
    imodintro
    isplitl [H8l H8r H1 H9]
    · isplitl [H8l]; · iexact H8l
      isplitl [H8r]; · iexact H8r
      isplitl [H1]; · iexact H1
      iexact H9
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iassumption
  hout c := by
    rw [Pipeline.ownSems0_none,
      show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iassumption
  hexit c := by
    rw [arrays_list, arrAt_0, arrAt_1, arrAt_2,
      show StableHlo.held (c : Thread nD τ) (Pipeline.ucRefs τ sig) (V₁ m c) = unscopedBufs c (fun b => V₁ m c b) from (Pipeline.unscopedBufs_held c _).symm,
      Pipeline.unscopedBufs_split₀ cfgs 0 (by decide) c (fun b => V₁ m c b), arrBufs_list, rest_V₁,
      V₁_of_ne m c main_v8 (by decide), V₁_of_ne m c main_arg1 (by decide), V₁_v9]
    iintro ⟨⟨H8l, H8r, H1, H9⟩, HO, -, Hrest⟩
    imodintro
    isplitr [HO]
    · isplitl [H8l H8r H1 H9]
      · isplitl [H8l H8r]
        · iapply (pointsTo_share (PosShare.mem_left_op_right fullShare)).2
          isplitl [H8l] <;> iassumption
        isplitl [H1] <;> iassumption
      iexact Hrest
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-! ## The launch -/

/-- The launch element: the pipeline library's, at the staging cells. -/
def u₀ : UR sig nD τ := initOf (Pipeline.cells cfgs cellOf_inj) (Pipeline.launchToks cfgs cellOf_inj)

/-- The post of the run: the result buffer at the last valuation's contents, the three arguments as launched. -/
def QC : PUnit × MemSt nD τ sig (Elt F) → Prop := fun r =>
  ∀ c : Dev nD, r.2.mem ((c : Thread nD τ).loc main_v13) = V₂ m c (Proc.devRef .tc main_v13)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
/-- From any memory with zero counters every weakly fair execution of @main on the TensorCores terminates, nothing
    faulting, in a state with the result buffer at the last valuation's contents and the arguments unchanged. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₂ m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v13) = V₂ m c (Proc.devRef .tc main_v13)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      unfold StableHlo.held
      iintro ⟨Hh, HSI⟩
      ihave Hr := (pointsTo_read_all (Pipeline.ucRefs τ sig) (fun b => ((c : Thread nD τ).1, b)) (V₂ m c) s') $$ [Hh HSI]
      · isplitl [Hh] <;> iassumption
      icases Hr with ⟨%h, HSI⟩
      imodintro
      isplitr
      · ipureintro
        exact ⟨h (Proc.devRef .tc main_v13) (Finset.mem_filter.mpr ⟨StableHlo.devRef_mem_tcRefs main_v13, by decide⟩),
          (h (Proc.devRef .tc main_arg0) (Finset.mem_filter.mpr ⟨StableHlo.devRef_mem_tcRefs main_arg0, by decide⟩)).trans
            (V₂_arg m c main_arg0 (by decide) (by decide) (by decide)),
          (h (Proc.devRef .tc main_arg1) (Finset.mem_filter.mpr ⟨StableHlo.devRef_mem_tcRefs main_arg1, by decide⟩)).trans
            (V₂_arg m c main_arg1 (by decide) (by decide) (by decide)),
          (h (Proc.devRef .tc main_arg2) (Finset.mem_filter.mpr ⟨StableHlo.devRef_mem_tcRefs main_arg2, by decide⟩)).trans
            (V₂_arg m c main_arg2 (by decide) (by decide) (by decide))⟩
      · iexact HSI)
    (hQ := fun _ h => h)

end Cert.KernelIdeal.Hand

end
-- ==== Proof.KIPayload.lean ====
/-
  The kernel body's one stored value, read at an index.

  At a grid point the body reads three blocks whole: `x0` (512 rows of the normalised matrix), `x1` (all 8192 rows of
  it) and `x2` (the same 512 rows of the similarity matrix). It forms the 512 × 8192 matrix of inner products of rows of
  `x0` with rows of `x1`, multiplies it entrywise by `x2`, sums every entry to one number, and stores that number in
  all 128 lanes of the output block. So every entry of the output block is
      ∑ r j, ⟨x0 r, x1 j⟩ · x2 r j.
  The steps: the matrix product at an entry is a sum over the one contracted coordinate; a cast of an operand to its own
  shape changes nothing; the view of the product with a leading unit axis reads the same entries; the sum over the last
  two axes into a one-entry vector is the total over the block, which is the double sum over rows and columns; and the
  broadcast of that entry reads it in every lane.
-/
import proofs.«173529_j70222715290004_2_alg».proof.Proof.KIBody
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## Indices of a block with a leading unit axis -/

/-- The index set of a `1 × a × b` block is the product of its last two coordinate ranges … -/
def idxEquiv1ab {a b : Nat} : (⟨3, ![1, a, b]⟩ : Shape).Idx ≃ Fin a × Fin b where
  toFun i := (i 1, i 2)
  invFun p := ix3 (0 : Fin 1) p.1 p.2
  left_inv i := by
    funext c
    match c with
    | ⟨0, _⟩ => exact Fin.ext (Nat.lt_one_iff.mp (i 0).isLt).symm
    | ⟨1, _⟩ => rfl
    | ⟨2, _⟩ => rfl
  right_inv _ := rfl

/-- … so a sum over it is the double sum over those two coordinates, the first coordinate being `0`. -/
theorem sum_idx1ab {M : Type*} [AddCommMonoid M] {a b : Nat} (f : (⟨3, ![1, a, b]⟩ : Shape).Idx → M) :
    ∑ i, f i = ∑ r : Fin a, ∑ j : Fin b, f (ix3 (0 : Fin 1) r j) := by
  rw [← Equiv.sum_comp (idxEquiv1ab (a := a) (b := b)).symm f, Fintype.sum_prod_type]
  rfl

/-! ## The block product at an index -/

/-- The left operand's index for output entry `i` has `i`'s row coordinate on its uncontracted axis … -/
theorem lhs_coord0 (i : S512x8192.Idx) (q : dot_S512x512_S8192x512_S512x8192_1_1_0_0_n_n.contr.Idx) :
    (dot_S512x512_S8192x512_S512x8192_1_1_0_0_n_n.lhsIdx i q 0).val = (i 0).val := by
  unfold DotDims.lhsIdx
  rw [dif_neg (show ¬(0 : Fin S512x512.rank) ∈ dot_S512x512_S8192x512_S512x8192_1_1_0_0_n_n.lhsBatch by decide), dif_pos (show (0 : Fin S512x512.rank) ∈ dot_S512x512_S8192x512_S512x8192_1_1_0_0_n_n.lhsNonContracting by decide)]
  rfl
/-- … and the right operand's has `i`'s column coordinate on its uncontracted axis. -/
theorem rhs_coord0 (i : S512x8192.Idx) (q : dot_S512x512_S8192x512_S512x8192_1_1_0_0_n_n.contr.Idx) :
    (dot_S512x512_S8192x512_S512x8192_1_1_0_0_n_n.rhsIdx i q 0).val = (i 1).val := by
  unfold DotDims.rhsIdx
  rw [dif_neg (show ¬(0 : Fin S8192x512.rank) ∈ dot_S512x512_S8192x512_S512x8192_1_1_0_0_n_n.rhsBatch by decide), dif_pos (show (0 : Fin S8192x512.rank) ∈ dot_S512x512_S8192x512_S512x8192_1_1_0_0_n_n.rhsNonContracting by decide)]
  rfl

/-- Entry `(r, j)` of the product of a `512 × 512` block with the transpose of an `8192 × 512` matrix, accumulated
    into zero, is the inner product of row `r` of the first with row `j` of the second. -/
theorem matmul_at (v1 : FVec Ideal S512x512 .bf16) (v3 : FVec Ideal S8192x512 .bf16) (r : Fin 512) (j : Fin 8192) :
    matmul dot_S512x512_S8192x512_S512x8192_1_1_0_0_n_n none v1 v3 (constant (F := Ideal) S512x8192 .f32 0x00000000#32) (ix2 r j)
      = ∑ d : Fin 512, v1 (ix2 r d) * v3 (ix2 j d) := by
  refine (Ideal.matmul_constant_zero_apply dot_S512x512_S8192x512_S512x8192_1_1_0_0_n_n none v1 v3 (ix2 r j)).trans ?_
  rw [← Equiv.sum_comp (contrEquiv1 dot_S512x512_S8192x512_S512x8192_1_1_0_0_n_n 512 rfl rfl).symm]
  refine Finset.sum_congr rfl fun k _ => ?_
  have hk := contrEquiv1_symm_val dot_S512x512_S8192x512_S512x8192_1_1_0_0_n_n 512 rfl rfl k
  have el : dot_S512x512_S8192x512_S512x8192_1_1_0_0_n_n.lhsIdx (ix2 r j) ((contrEquiv1 dot_S512x512_S8192x512_S512x8192_1_1_0_0_n_n 512 rfl rfl).symm k) = ix2 r k := funext fun a => Fin.ext (by
    match a with
    | ⟨0, _⟩ => exact lhs_coord0 _ _
    | ⟨1, _⟩ => exact (dot_S512x512_S8192x512_S512x8192_1_1_0_0_n_n.lhsIdx_val_of_single rfl _ _).trans hk)
  have er : dot_S512x512_S8192x512_S512x8192_1_1_0_0_n_n.rhsIdx (ix2 r j) ((contrEquiv1 dot_S512x512_S8192x512_S512x8192_1_1_0_0_n_n 512 rfl rfl).symm k) = ix2 j k := funext fun a => Fin.ext (by
    match a with
    | ⟨0, _⟩ => exact rhs_coord0 _ _
    | ⟨1, _⟩ => exact (dot_S512x512_S8192x512_S512x8192_1_1_0_0_n_n.rhsIdx_val_of_single rfl _ _).trans hk)
  rw [el, er]

/-! ## The total over a block -/

/-- The sum of a `1 × 512 × 8192` block over its last two axes, at the one index of the result, is the double sum
    over the block's rows and columns. -/
theorem reduce_all (src : FVec Ideal S1x512x8192 .f32) (hφ : FKind.Formats .f32)
    (hacc : (0x00000000#32 : BitVec 32) = FKind.add.neutral .f32 hφ) (k : S1.Idx) :
    multiReduction .add [1, 2] S1 src 0x00000000#32 reduces_S1x512x8192_S1 hφ hacc k
      = ∑ r : Fin 512, ∑ j : Fin 8192, src (ix3 (0 : Fin 1) r j) :=
  (Ideal.multiReduction_add_total src 0x00000000#32 reduces_S1x512x8192_S1 (fun b => by
    match b with | ⟨0, _⟩ => rfl) hφ hacc k).trans (sum_idx1ab src)

/-! ## The body's one store at an index -/

/-- One summand of the total: entry `(0, r, j)` of the entrywise product of the block product with the third operand,
    viewed with a leading unit axis, is the inner product of row `r` of the first operand with row `j` of the second
    times entry `(r, j)` of the third. The two casts of an operand to its own shape change nothing. -/
theorem summand_apply (v0 : FVec Ideal S512x512 .bf16) (v2 : FVec Ideal S8192x512 .bf16) (v5 : FVec Ideal S512x8192 .f32)
    (r : Fin 512) (j : Fin 8192) :
    shapeCast S1x512x8192
        (mulf (matmul (φ₁ := .bf16) (φ₂ := .bf16) dot_S512x512_S8192x512_S512x8192_1_1_0_0_n_n none (shapeCast S512x512 v0 shapeCasts_S512x512_S512x512)
          (shapeCast S8192x512 v2 shapeCasts_S8192x512_S8192x512) (constant (F := Ideal) S512x8192 .f32 0x00000000#32)) v5)
        shapeCasts_S512x8192_S1x512x8192 (ix3 (0 : Fin 1) r j)
      = (∑ d : Fin 512, v0 (ix2 r d) * v2 (ix2 j d)) * v5 (ix2 r j) := by
  have e0 : shapeCast S512x512 v0 shapeCasts_S512x512_S512x512 = v0 := shapeCast_self v0 _
  have e2 : shapeCast S8192x512 v2 shapeCasts_S8192x512_S8192x512 = v2 := shapeCast_self v2 _
  refine (shapeCast_ab_1ab_apply _ _ (0 : Fin 1) r j).trans ?_
  refine (mulf_apply _ v5 (ix2 r j)).trans (congrArg (· * v5 (ix2 r j)) ?_)
  rw [e0, e2]
  exact matmul_at v0 v2 r j

/-- The stored value's lanes all read the one entry of the reduced vector. -/
theorem lanes_apply (w : FVec Ideal S1 .f32) (y : S1x1x128.Idx) :
    broadcast S1x1x128 (extractAt ![0, 0, 0] (shapeCast S1x1x1 w shapeCasts_S1_S1x1x1) inpos_S1x1x1_p0_0_0) y
      = w ((Shape.reshapeEquiv shapeCasts_S1_S1x1x1) fun a => ⟨![0, 0, 0] a, inpos_S1x1x1_p0_0_0 a⟩) := rfl

/-- Every lane of the stored value is the total, over the block's rows `r` and all columns `j`, of the inner product
    of row `r` of the first operand with row `j` of the second times entry `(r, j)` of the third. -/
theorem pay_apply (v0 : FVec Ideal S512x512 .bf16) (v2 : FVec Ideal S8192x512 .bf16) (v5 : FVec Ideal S512x8192 .f32)
    (y : S1x1x128.Idx) :
    k0_pay1 (F := Ideal) v0 v2 v5 y
      = ∑ r : Fin 512, ∑ j : Fin 8192, (∑ d : Fin 512, v0 (ix2 r d) * v2 (ix2 j d)) * v5 (ix2 r j) := by
  unfold k0_pay1
  dsimp only
  refine (lanes_apply _ y).trans ?_
  refine (reduce_all _ (.inl rfl) rfl _).trans ?_
  exact Finset.sum_congr rfl fun r _ => Finset.sum_congr rfl fun j _ => summand_apply v0 v2 v5 r j

/-! ## The output block at an index -/

/-- The offsets of a whole-block access, rank 2 and rank 3, are all zero. -/
theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- The output block after the body, from the three input blocks read whole: the one store covers the block, so
    every entry is the stored total. -/
theorem outBlock_apply (x0 : Vec Ideal S512x512 .bf16) (x1 : Vec Ideal S8192x512 .bf16) (x2 : Vec Ideal S512x8192 .f32)
    (y : S1x1x128.Idx) :
    outBlock (F := Ideal) x0 x1 x2 y
      = ∑ r : Fin 512, ∑ j : Fin 8192, (∑ d : Fin 512, x0 (ix2 r d) * x1 (ix2 j d)) * x2 (ix2 r j) := by
  unfold outBlock
  rw [View.canon_unit_zero zero_offsets3]
  simp only [View.ld_unit_zero (S := S512x512) zero_offsets2, View.ld_unit_zero (S := S8192x512) zero_offsets2,
    View.ld_unit_zero (S := S512x8192) zero_offsets2]
  exact pay_apply x0 x1 x2 y

end Cert.KernelIdeal.Hand

end
-- ==== Proof.Spec.lean ====
/-
  The similarity loss as two closed expressions on the extended reals, over an embedding matrix `e` (8192 rows of 512
  entries) and a similarity matrix `s` (8192 × 8192).

  `loss` divides the Gram matrix entrywise by the product of the two rows' Euclidean norms and sums against `s`:
      − ∑ i j, (⟨e i, e j⟩ / (‖e i‖ · ‖e j‖)) · s i j.
  `blockLoss` first scales every row by the reciprocal of its norm, takes the inner products of the scaled rows, and
  sums them against `s` one block of 512 rows at a time:
      − ∑ t, ∑ r j, ⟨e (512 t + r) / ‖e (512 t + r)‖, e j / ‖e j‖⟩ · s (512 t + r) j.
  On real entries with every norm positive the two are one number: a scaled inner product is the inner product times
  both reciprocals, and the 16 blocks of 512 rows enumerate the 8192 rows once each. On a row of norm zero they are
  not: the first forms 0 / 0 where the second forms 0 · (1 / 0).
-/
import Idealize.ShloMosaic.PureOps.Ideal
import Idealize.ShloMosaic.Lib.ValueIdx

noncomputable section

open scoped BigOperators

namespace Cert.Spec

open Idealize.ShloMosaic Idealize.ShloMosaic.ValueIdx

/-- An embedding matrix: 8192 rows of 512 entries. -/
abbrev Emb := (⟨2, ![8192, 512]⟩ : Shape).Idx → EReal
/-- A similarity matrix: 8192 × 8192 entries. -/
abbrev Sim := (⟨2, ![8192, 8192]⟩ : Shape).Idx → EReal

/-- Every entry of the family is a real number (neither infinity). -/
def IsReal {ι : Type} (x : ι → EReal) : Prop := ∀ i, ∃ r : ℝ, x i = (r : EReal)

/-- Row `i`'s sum of squares. -/
def sq (e : Emb) (i : Fin 8192) : EReal := ∑ d : Fin 512, e (ix2 i d) * e (ix2 i d)

/-- Row `i`'s Euclidean norm. -/
def norm (e : Emb) (i : Fin 8192) : EReal := Ideal.sqrt (sq e i)

/-- The inner product of rows `i` and `j`. -/
def gram (e : Emb) (i j : Fin 8192) : EReal := ∑ d : Fin 512, e (ix2 i d) * e (ix2 j d)

/-- The loss with the Gram matrix divided entrywise by the product of the two rows' norms. -/
def loss (e : Emb) (s : Sim) : EReal :=
  -(∑ i : Fin 8192, ∑ j : Fin 8192, Ideal.div (gram e i j) (norm e i * norm e j) * s (ix2 i j))

/-- Entry `(i, d)` of the matrix whose rows are each scaled by the reciprocal of the row's norm. -/
def unit (e : Emb) (i : Fin 8192) (d : Fin 512) : EReal := e (ix2 i d) * Ideal.div 1 (norm e i)

/-- Row `r` of row block `t`: the 8192 rows are 16 blocks of 512. -/
def row (t : Fin 16) (r : Fin 512) : Fin 8192 := ⟨512 * t.val + r.val, by omega⟩

/-- The loss with the rows normalised first and one partial sum per block of 512 rows. -/
def blockLoss (e : Emb) (s : Sim) : EReal :=
  -(∑ t : Fin 16, ∑ r : Fin 512, ∑ j : Fin 8192,
      (∑ d : Fin 512, unit e (row t r) d * unit e j d) * s (ix2 (row t r) j))

end Cert.Spec

end
-- ==== Proof.KIHost.lean ====
/-
  The operations of the program around its kernel region, read as values on the extended reals.

  Before the region: every row of the embedding matrix is multiplied by the reciprocal of its Euclidean norm. The
  similarity matrix is an argument, which no operation writes. After the region: the first lane of each of the 16
  partial sums is taken, the 16 numbers are added from zero, and the sum is negated.
-/
import proofs.«173529_j70222715290004_2_alg».proof.Proof.KIBody
import proofs.«173529_j70222715290004_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Hand

open Cert.KernelIdeal Cert.KernelIdeal.Gen

open Idealize.ShloMosaic Idealize.ShloMosaic.TcCoe Idealize.ShloMosaic.ValueIdx Idealize.ShloMosaic.StableHlo
open Idealize.SL.Sem

/-! ## Before the region -/

/-- The sum along a row of the entrywise square, from the zero word, is the row's sum of squares. -/
theorem rowSq_apply (e : FVec Ideal S8192x512 .f32) (h : S8192x512.ReducesTo [1] S8192) (hu : 0 < S_.numel) (i : Fin 8192) :
    Host.reduceAdd (F := Ideal) (mulf e e) (constant (F := Ideal) S_ .f32 0x00000000#32) h hu (ix1 i)
      = Cert.Spec.sq e i := by
  simp only [Host.reduceAdd, Ideal.hostReduceAdd_def]
  rw [Ideal.hostReduceAdd_single h (by decide), constant_apply, Ideal.ofBits_zero_f32, zero_add]
  unfold Cert.Spec.sq
  refine Finset.sum_congr rfl fun k _ => ?_
  rw [mulf_apply]
  exact congrArg (fun j => e j * e j)
    (funext fun a => Fin.ext (by match a with | ⟨0, _⟩ => rfl | ⟨1, _⟩ => rfl))

/-- The reciprocal of the row norms, repeated along each row, read at an entry: one over the row's norm. -/
theorem recipNorm_apply (e : FVec Ideal S8192x512 .f32) (hr : S8192x512.ReducesTo [1] S8192) (hu : 0 < S_.numel)
    (hb0 : S_.BroadcastsInDim S8192 (![] : Fin 0 → Fin S8192.rank))
    (hb1 : S8192.BroadcastsInDim S8192x1 (![0] : Fin 1 → Fin S8192x1.rank))
    (hb2 : S8192x1.BroadcastsInDim S8192x512 (![0, 1] : Fin 2 → Fin S8192x512.rank)) (i : Fin 8192) (d : Fin 512) :
    broadcastInDim S8192x512 ![0, 1] hb2 (broadcastInDim S8192x1 ![0] hb1
      (Host.divf (F := Ideal) (broadcastInDim S8192 ![] hb0 (constant (F := Ideal) S_ .f32 0x3F800000#32))
        (Host.sqrt (F := Ideal) (Host.reduceAdd (F := Ideal) (mulf e e) (constant (F := Ideal) S_ .f32 0x00000000#32) hr hu))))
      (ix2 i d) = Ideal.div 1 (Cert.Spec.norm e i) := by
  rw [broadcastInDim_apply _ hb2 _ (ix2 i d) (ix2 i (0 : Fin 1)) (fun a => match a with
    | ⟨0, _⟩ => by show i.val = if (8192 : Nat) = 1 then 0 else i.val; rw [if_neg (by decide)]
    | ⟨1, _⟩ => by show 0 = if (1 : Nat) = 1 then 0 else d.val; rw [if_pos rfl])]
  rw [broadcastInDim_apply _ hb1 _ (ix2 i (0 : Fin 1)) (ix1 i) (fun a => match a with
    | ⟨0, _⟩ => by show i.val = if (8192 : Nat) = 1 then 0 else i.val; rw [if_neg (by decide)])]
  show Ideal.div (Ideal.ofBits .f32 0x3F800000#32)
    (Ideal.sqrt (Host.reduceAdd (F := Ideal) (mulf e e) (constant (F := Ideal) S_ .f32 0x00000000#32) hr hu (ix1 i))) = _
  rw [Ideal.ofBits_one_f32, rowSq_apply]
  rfl

/-- The eleven operations before the region leave, at entry `(i, d)` of the matrix the region reads, the embedding's
    entry times the reciprocal of its row's norm (the final change of format is the identity on the extended reals). -/
theorem V_v8_apply (m : (ℓ : Loc nD τ sig) → Buf (Elt Ideal) ℓ) (c : Dev nD) (i : Fin 8192) (d : Fin 512) :
    (V (F := Ideal) m c main_v8 : S8192x512.Idx → EReal) (ix2 i d)
      = Cert.Spec.unit (m ((c : Thread nD τ).loc main_arg0)) i d := by
  dsimp only [V, Gen.hostOps0]
  after_results
  rw [truncf_apply, mulf_apply, recipNorm_apply]
  rfl

/-! ## An argument is not written -/

/-- A reference other than the eleven results is written by none of the operations before the region. -/
theorem prefix_keeps {F : FTy → Type} [FloatOps F] (b : Ref sig .tc)
    (hb : b ≠ main_v0 ∧ b ≠ main_cst ∧ b ≠ main_v1 ∧ b ≠ main_v2 ∧ b ≠ main_cst_0 ∧ b ≠ main_v3 ∧ b ≠ main_v4
      ∧ b ≠ main_v5 ∧ b ≠ main_v6 ∧ b ≠ main_v7 ∧ b ≠ main_v8) :
    ∀ op ∈ (Gen.hostOps0 (F := F)), Proc.devRef .tc b ∉ op.writes := by
  obtain ⟨h0, h1, h2, h3, h4, h5, h6, h7, h8, h9, h10⟩ := hb
  intro op hop
  simp only [List.mem_cons, List.mem_nil_iff, or_false] at hop
  rcases hop with rfl | rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

/-- The similarity matrix reaches the region as launched. -/
theorem V_arg1_eq {F : FTy → Type} [FloatOps F] (m : (ℓ : Loc nD τ sig) → Buf (Elt F) ℓ) (c : Dev nD) :
    V (F := F) m c main_arg1 = m ((c : Thread nD τ).loc main_arg1) :=
  StableHlo.after_of_forall_not_mem (b := Proc.devRef .tc main_arg1) Gen.hostOps0 (V₀ m c) (prefix_keeps main_arg1 (by decide))

/-- So does the embedding matrix. -/
theorem V_arg0_eq {F : FTy → Type} [FloatOps F] (m : (ℓ : Loc nD τ sig) → Buf (Elt F) ℓ) (c : Dev nD) :
    V (F := F) m c main_arg0 = m ((c : Thread nD τ).loc main_arg0) :=
  StableHlo.after_of_forall_not_mem (b := Proc.devRef .tc main_arg0) Gen.hostOps0 (V₀ m c) (prefix_keeps main_arg0 (by decide))

/-! ## After the region -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) :=
  (Equiv.sum_comp (idxEquiv1 (n := n)).symm f).symm

/-- The sum of 16 numbers from the zero word is their sum. -/
theorem sum16_apply (y : FVec Ideal S16 .f32) (h : S16.ReducesTo [0] S_) (hu : 0 < S_.numel) (j : S_.Idx) :
    Host.reduceAdd (F := Ideal) y (constant (F := Ideal) S_ .f32 0x00000000#32) h hu j = ∑ t : Fin 16, y (ix1 t) := by
  simp only [Host.reduceAdd, Ideal.hostReduceAdd_def]
  rw [Ideal.hostReduceAdd_total h (fun b => b.elim0), constant_apply, Ideal.ofBits_zero_f32, zero_add]
  exact sum_idx1 y

/-- Entry `t` of the 16 numbers is the first lane of partial sum `t`. -/
theorem lane0_apply (w : S16x1x128.Idx → EReal) (hs : S16x1x128.Slices ![0, 0, 0] S16x1x1) (hc : S16x1x1.ShapeCasts S16)
    (t : Fin 16) : shapeCast S16 (extractStridedSlice S16x1x1 ![0, 0, 0] w hs) hc (ix1 t) = w (ix3 t 0 0) := by
  rw [shapeCast_apply _ hc (ix1 t) (ix3 t 0 0) (by
    rw [Shape.rowMajor_val_three, Shape.rowMajor_val_one]
    show (t.val * 1 + 0) * 1 + 0 = t.val
    omega)]
  exact extractStridedSlice_apply _ w hs (ix3 t 0 0) (ix3 t 0 0) (fun a => by
    match a with
    | ⟨0, _⟩ => show t.val = 0 + t.val; omega
    | ⟨1, _⟩ => rfl
    | ⟨2, _⟩ => rfl)

/-- The five operations after the region, from any contents `W`: minus the sum of the first lanes of the 16 partial
    sums the region left. -/
theorem tail_apply (W : Valuation τ sig (Elt Ideal)) (w : S16x1x128.Idx → EReal) (hw : W (Proc.devRef .tc main_v9) = w) :
    StableHlo.after (Gen.hostOps1 (F := Ideal)) W (Proc.devRef .tc main_v13)
      = (fun _ => -(∑ t : Fin 16, w (ix3 t 0 0)) : S_.Idx → EReal) := by
  subst hw
  dsimp only [Gen.hostOps1]
  after_results
  funext j
  show -(Host.reduceAdd (F := Ideal) (shapeCast S16 (extractStridedSlice S16x1x1 ![0, 0, 0] (W (Proc.devRef .tc main_v9))
    Facts₀.slices_S16x1x128_S16x1x1_0_0_0) Facts₀.shapeCasts_S16x1x1_S16) (constant (F := Ideal) S_ .f32 0x00000000#32)
    Facts₀.reducesTo_S16_S_d0 Facts₀.h_S_ j) = _
  rw [sum16_apply]
  exact congrArg Neg.neg (Finset.sum_congr rfl fun t _ => lane0_apply _ _ _ t)

end Cert.KernelIdeal.Hand

end
-- ==== Proof.KIValue.lean ====
/-
  The kernel's result as a number: `Spec.blockLoss` of the embedding and similarity arrays.

  Point `t` of the grid stages rows `512 t … 512 t + 511` of the normalised matrix and of the similarity matrix, and
  the whole normalised matrix; the body's one store is the sum over those rows `r` and all columns `j` of the
  normalised rows' inner product times the similarity entry — the partial sum of block `t` — repeated along the lanes,
  and the write-back puts it in row `t` of the 16 × 1 × 128 output. The 16 write-backs touch 16 different rows, so
  entry `(t, 0, 0)` of the output array ends at block `t`'s partial sum. The host then adds the 16 entries and negates.
-/
import proofs.«173529_j70222715290004_2_alg».proof.Proof.KIRun
import proofs.«173529_j70222715290004_2_alg».proof.Proof.KIPayload
import proofs.«173529_j70222715290004_2_alg».proof.Proof.KIHost
import proofs.«173529_j70222715290004_2_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen

open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Block `t`'s partial sum: over its 512 rows and all 8192 columns, the normalised rows' inner product times the
    similarity entry. -/
def partialSum (e : Cert.Spec.Emb) (s : Cert.Spec.Sim) (t : Fin 16) : EReal :=
  ∑ r : Fin 512, ∑ j : Fin 8192, (∑ d : Fin 512, Cert.Spec.unit e (Cert.Spec.row t r) d * Cert.Spec.unit e j d) * s (ix2 (Cert.Spec.row t r) j)

/-- The loss by blocks is minus the sum of the 16 partial sums. -/
theorem blockLoss_eq (e : Cert.Spec.Emb) (s : Cert.Spec.Sim) : Cert.Spec.blockLoss e s = -(∑ t : Fin 16, partialSum e s t) := rfl

/-- The printed index maps over the grid: the row windows and the output move with the point, the whole matrix does not. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A point as a block number. -/
abbrev blockOf (t : Fin cfg0.N) : Fin 16 := Fin.cast N_0 t

/-! ## The three input blocks at a point, entry by entry -/

theorem iblk0_apply (c : Dev nD) (t : Fin cfg0.N) (r : Fin 512) (d : Fin 512) :
    iblk (F := Ideal) m c 0 t (ix2 r d) = Cert.Spec.unit (m ((c : Thread nD τ).loc main_arg0)) (Cert.Spec.row (blockOf t) r) d := by
  obtain ⟨e0, e1, -⟩ := idx_facts t
  show V m c main_v8 (((cfg0.win 0).blk t).view.emb (ix2 r d)) = _
  have h : ((cfg0.win 0).blk t).view.emb (ix2 r d) = ix2 (Cert.Spec.row (blockOf t) r) d := by
    funext a; apply Fin.ext
    match a with
    | ⟨0, _⟩ => show win0_0.index t (0 : Fin 2) * 512 + 1 * r.val = 512 * t.val + r.val; omega
    | ⟨1, _⟩ => show win0_0.index t (1 : Fin 2) * 512 + 1 * d.val = d.val; omega
  rw [h]
  exact V_v8_apply m c _ _

theorem iblk1_apply (c : Dev nD) (t : Fin cfg0.N) (j : Fin 8192) (d : Fin 512) :
    iblk (F := Ideal) m c 1 t (ix2 j d) = Cert.Spec.unit (m ((c : Thread nD τ).loc main_arg0)) j d := by
  obtain ⟨-, -, e2, e3, -⟩ := idx_facts t
  show V m c main_v8 (((cfg0.win 1).blk t).view.emb (ix2 j d)) = _
  have h : ((cfg0.win 1).blk t).view.emb (ix2 j d) = ix2 j d := by
    funext a; apply Fin.ext
    match a with
    | ⟨0, _⟩ => show win0_1.index t (0 : Fin 2) * 8192 + 1 * j.val = j.val; omega
    | ⟨1, _⟩ => show win0_1.index t (1 : Fin 2) * 512 + 1 * d.val = d.val; omega
  rw [h]
  exact V_v8_apply m c _ _

theorem iblk2_apply (c : Dev nD) (t : Fin cfg0.N) (r : Fin 512) (j : Fin 8192) :
    iblk (F := Ideal) m c 2 t (ix2 r j) = m ((c : Thread nD τ).loc main_arg1) (ix2 (Cert.Spec.row (blockOf t) r) j) := by
  obtain ⟨-, -, -, -, e4, e5, -⟩ := idx_facts t
  show V m c main_arg1 (((cfg0.win 2).blk t).view.emb (ix2 r j)) = _
  have h : ((cfg0.win 2).blk t).view.emb (ix2 r j) = ix2 (Cert.Spec.row (blockOf t) r) j := by
    funext a; apply Fin.ext
    match a with
    | ⟨0, _⟩ => show win0_2.index t (0 : Fin 2) * 512 + 1 * r.val = 512 * t.val + r.val; omega
    | ⟨1, _⟩ => show win0_2.index t (1 : Fin 2) * 8192 + 1 * j.val = j.val; omega
  rw [h, V_arg1_eq]

/-! ## What a point writes back, and the output array at the end -/

/-- Every entry of what point `t` writes back is block `t`'s partial sum. -/
theorem flushed3_apply (c : Dev nD) (t : Fin cfg0.N) (y : S1x1x128.Idx) :
    (dats (F := Ideal) m 0 c).flushed 3 t y
      = partialSum (m ((c : Thread nD τ).loc main_arg0)) (m ((c : Thread nD τ).loc main_arg1)) (blockOf t) := by
  show (cfg0.win 3).cut (grid0.coords t) ((dats m 0 c).after 3 t) y = _
  rw [after0_3]
  show outBlock (iblk m c 0 t) (iblk m c 1 t) (iblk m c 2 t) y = _
  rw [outBlock_apply]
  unfold partialSum
  refine Finset.sum_congr rfl fun r _ => Finset.sum_congr rfl fun j _ => ?_
  rw [iblk2_apply]
  refine congrArg (· * _) (Finset.sum_congr rfl fun d _ => ?_)
  rw [iblk0_apply, iblk1_apply]

/-- The output array's contents where covered: row `t` at block `t`'s partial sum. -/
def outArray (c : Dev nD) : Buf (Elt Ideal) ((cfg0.win 3).arr.view.loc (c : Thread nD τ)) :=
  fun i => partialSum (m ((c : Thread nD τ).loc main_arg0)) (m ((c : Thread nD τ).loc main_arg1)) (i 0)

/-- Point `t` writes back block `t` of that array. -/
theorem flushed3_eq (c : Dev nD) (t : Fin cfg0.N) :
    (dats (F := Ideal) m 0 c).flushed 3 t = ((cfg0.win 3).blk t).view.read (Elt Ideal) (outArray m c) := by
  obtain ⟨-, -, -, -, -, -, e6, e7, e8⟩ := idx_facts t
  funext y
  rw [flushed3_apply]
  show _ = partialSum _ _ ((((cfg0.win 3).blk t).view.emb y) 0)
  congr 1
  apply Fin.ext
  show t.val = win0_3.index t (0 : Fin 3) * 1 + 1 * (y 0).val
  have hy : (y 0).val < 1 := (y 0).isLt
  omega

/-- An index of the output array is in point `t`'s block iff each coordinate is in the block's range. -/
theorem mem_blk3 (t : Fin cfg0.N) (i : S16x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v9).slice (win0_3.rect t)).set ↔ _
  rw [View.set_slice_whole, Rect.mem_set_unit]
  exact Iff.rfl

/-- Entry `(t, 0, 0)` of the output array after the run is block `t`'s partial sum. -/
theorem arrAt3_apply (c : Dev nD) (t : Fin cfg0.N) :
    (dats (F := Ideal) m 0 c).arrAt 3 cfg0.N (ix3 (blockOf t) (0 : Fin 1) (0 : Fin 128))
      = partialSum (m ((c : Thread nD τ).loc main_arg0)) (m ((c : Thread nD τ).loc main_arg1)) (blockOf t) := by
  obtain ⟨-, -, -, -, -, -, e6, e7, e8⟩ := idx_facts t
  refine (dats m 0 c).arrAt_apply_of_mem 3 (outArray m c) (fun t _ => flushed3_eq m c t) cfg0.N t _ t.isLt (flush0_3 t) ?_
  rw [mem_blk3]
  intro a
  match a with
  | ⟨0, _⟩ => show win0_3.index t (0 : Fin 3) * 1 ≤ t.val ∧ t.val < win0_3.index t (0 : Fin 3) * 1 + 1; omega
  | ⟨1, _⟩ => show win0_3.index t (1 : Fin 3) * 1 ≤ 0 ∧ 0 < win0_3.index t (1 : Fin 3) * 1 + 1; omega
  | ⟨2, _⟩ => show win0_3.index t (2 : Fin 3) * 128 ≤ 0 ∧ 0 < win0_3.index t (2 : Fin 3) * 128 + 128; omega

/-! ## The result -/

/-- The result buffer at the end of the run holds the loss by blocks of the two argument arrays. -/
theorem result_eq (c : Dev nD) :
    V₂ (F := Ideal) m c (Proc.devRef .tc main_v13)
      = fun _ => Cert.Spec.blockLoss (m ((c : Thread nD τ).loc main_arg0)) (m ((c : Thread nD τ).loc main_arg1)) := by
  rw [blockLoss_eq]
  refine (tail_apply (V₁ m c) ((dats m 0 c).arrAt 3 cfg0.N) (V₁_v9 m c)).trans ?_
  funext _
  refine congrArg Neg.neg (Finset.sum_congr rfl fun t _ => ?_)
  exact arrAt3_apply m c (Fin.cast N_0.symm t)

end Cert.KernelIdeal.Hand

end
-- ==== Proof.RefLoss.lean ====
/-
  The reference's result, read off its run one operation at a time, is `Spec.loss` of its first two arguments.

  The run's last stage is a negated total over all pairs `(i, j)`. Each summand is a quotient times a similarity
  entry; the quotient's numerator is entry `(i, j)` of the embedding times its transpose, that is the inner product of
  rows `i` and `j`, and its denominator is entry `(i, j)` of the outer product of the vector of row norms with itself,
  where a row's norm is the square root of the row's sum of squares. Each of these is one lemma below, and the total
  over the pair index is the double sum over the two coordinates.
-/
import proofs.«173529_j70222715290004_2_alg».proof.Proof.Gen.ReferenceIdeal.Read
import proofs.«173529_j70222715290004_2_alg».proof.Proof.Spec

noncomputable section

open scoped BigOperators

namespace Cert.RefLoss

open Cert.ReferenceIdeal Cert.ReferenceIdeal.Gen Cert.ReferenceIdeal.Read
open Idealize.ShloMosaic Idealize.ShloMosaic.ValueIdx

/-- The square root of row `i`'s sum of squares (the sum starts from zero) is the row's Euclidean norm. -/
theorem norm_stage (e : FVec Ideal S8192x512 .f32) (i : S8192.Idx) :
    val_main_v2 (F := Ideal) e i = Cert.Spec.norm e (i 0) := by
  have hx : ∀ k : Fin 512, idx_main_v1 i k = ix2 (i 0) k := fun k =>
    funext fun a => Fin.ext (by match a with | ⟨0, _⟩ => rfl | ⟨1, _⟩ => rfl)
  rw [val_main_v2_apply, val_main_v1_apply, val_main_cst_apply]
  simp only [val_main_v0_apply, hx, Ideal.hostUnary_sqrt_def, Ideal.mulf_def, Ideal.ofBits_def,
    Ideal.ofBits_zero_f32, zero_add]
  rfl

/-- Entry `(a, b)` of the embedding times its transpose is the inner product of rows `a` and `b`: the contraction
    runs over the second coordinate of both factors. -/
theorem gram_stage (e : FVec Ideal S8192x512 .f32) (a b : Fin 8192) :
    val_main_v3 (F := Ideal) e (ix2 a b) = Cert.Spec.gram e a b := by
  have hl : ∀ k : Fin 512, lidx_main_v3 (ix2 a b) k = ix2 a k := fun k =>
    funext fun d => Fin.ext (by match d with | ⟨0, _⟩ => rfl | ⟨1, _⟩ => rfl)
  have hr : ∀ k : Fin 512, ridx_main_v3 (ix2 a b) k = ix2 b k := fun k =>
    funext fun d => Fin.ext (by match d with | ⟨0, _⟩ => rfl | ⟨1, _⟩ => rfl)
  rw [val_main_v3_apply]
  simp only [hl, hr]
  rfl

/-- Entry `(a, b)` of the outer product of the norm vector with itself — the column of norms repeated along the
    second axis times the row of norms repeated along the first — is the product of the two rows' norms. -/
theorem denom_stage (e : FVec Ideal S8192x512 .f32) (a b : Fin 8192) :
    val_main_v8 (F := Ideal) e (ix2 a b) = Cert.Spec.norm e a * Cert.Spec.norm e b := by
  rw [val_main_v8_apply, val_main_v6_apply, val_main_v7_apply, val_main_v4_apply, val_main_v5_apply,
    norm_stage, norm_stage]
  rfl

/-- One summand of the total: the inner product divided by the product of the two norms, times the similarity
    entry. -/
theorem term_stage (e : FVec Ideal S8192x512 .f32) (s : FVec Ideal S8192x8192 .f32) (a b : Fin 8192) :
    val_main_v10 (F := Ideal) e s (ix2 a b)
      = Ideal.div (Cert.Spec.gram e a b) (Cert.Spec.norm e a * Cert.Spec.norm e b) * s (ix2 a b) := by
  rw [val_main_v10_apply, val_main_v9_apply, gram_stage, denom_stage]
  rfl

/-- The reference's result is the loss of its first two arguments: the total over the pair index, started from zero,
    is the double sum over the two coordinates of the summands above, and the last operation negates it. -/
theorem result_eq (e : FVec Ideal S8192x512 .f32) (s : FVec Ideal S8192x8192 .f32) :
    val_main_v12 (F := Ideal) e s = fun _ => Cert.Spec.loss e s := by
  funext i
  rw [val_main_v12_apply, val_main_v11_apply, val_main_cst_0_apply, sum_idx2]
  simp only [term_stage, Ideal.hostNegf_def, Ideal.negf_def, Ideal.ofBits_def, Ideal.ofBits_zero_f32, zero_add]
  rfl

end Cert.RefLoss

end
-- ==== Proof.LossAlgebra.lean ====
/-
  The two closed expressions of the similarity loss agree on real entries with every row norm positive.

  Two facts carry the proof. First, the 16 blocks of 512 rows enumerate the 8192 rows once each, so a sum over
  blocks and rows inside a block is the sum over all rows. Second, term by term: once every entry is a real number
  and every norm is a positive real, division by a norm is multiplication by its reciprocal, so the inner product
  of two scaled rows is the inner product of the rows times both reciprocals, which is the Gram entry divided by
  the product of the two norms.
-/
import proofs.«173529_j70222715290004_2_alg».proof.Proof.Spec

noncomputable section

open scoped BigOperators

namespace Cert.Spec

open Idealize.ShloMosaic Idealize.ShloMosaic.ValueIdx

/-- The coercion of the reals into the extended reals commutes with finite sums. -/
theorem coe_sum {ι : Type} (t : Finset ι) (f : ι → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

/-! ### The blocks enumerate the rows -/

/-- Block `t`, row `r` inside it ↦ row `512 t + r`: a bijection of the 16 × 512 pairs with the 8192 rows. -/
def rowEquiv : Fin 16 × Fin 512 ≃ Fin 8192 where
  toFun p := row p.1 p.2
  invFun i := (⟨i.val / 512, by omega⟩, ⟨i.val % 512, by omega⟩)
  left_inv p := by
    obtain ⟨t, r⟩ := p
    refine Prod.ext (Fin.ext ?_) (Fin.ext ?_)
    · show (512 * t.val + r.val) / 512 = t.val
      omega
    · show (512 * t.val + r.val) % 512 = r.val
      omega
  right_inv i := by
    refine Fin.ext ?_
    show 512 * (i.val / 512) + i.val % 512 = i.val
    omega

/-- A sum over blocks and rows inside a block is the sum over all rows. -/
theorem sum_row {M : Type} [AddCommMonoid M] (g : Fin 8192 → M) :
    ∑ t : Fin 16, ∑ r : Fin 512, g (row t r) = ∑ i : Fin 8192, g i := by
  rw [← Equiv.sum_comp rowEquiv g, Fintype.sum_prod_type]
  rfl

/-! ### Real witnesses -/

section Real

variable {e : Emb} {a : (⟨2, ![8192, 512]⟩ : Shape).Idx → ℝ}

/-- Row `i`'s real sum of squares. -/
def rsq (a : (⟨2, ![8192, 512]⟩ : Shape).Idx → ℝ) (i : Fin 8192) : ℝ :=
  ∑ d : Fin 512, a (ix2 i d) * a (ix2 i d)

/-- The real inner product of rows `i` and `j`. -/
def rgram (a : (⟨2, ![8192, 512]⟩ : Shape).Idx → ℝ) (i j : Fin 8192) : ℝ :=
  ∑ d : Fin 512, a (ix2 i d) * a (ix2 j d)

theorem rsq_nonneg (a : (⟨2, ![8192, 512]⟩ : Shape).Idx → ℝ) (i : Fin 8192) : 0 ≤ rsq a i :=
  Finset.sum_nonneg fun _ _ => mul_self_nonneg _

theorem sq_eq (ha : ∀ k, e k = (a k : EReal)) (i : Fin 8192) : sq e i = (rsq a i : EReal) := by
  unfold sq rsq
  rw [coe_sum]
  refine Finset.sum_congr rfl fun d _ => ?_
  rw [ha, EReal.coe_mul]

theorem norm_eq (ha : ∀ k, e k = (a k : EReal)) (i : Fin 8192) :
    norm e i = (Real.sqrt (rsq a i) : EReal) := by
  unfold norm
  rw [sq_eq ha, Ideal.sqrt_coe, if_neg (not_lt.mpr (rsq_nonneg a i))]

theorem gram_eq (ha : ∀ k, e k = (a k : EReal)) (i j : Fin 8192) :
    gram e i j = (rgram a i j : EReal) := by
  unfold gram rgram
  rw [coe_sum]
  refine Finset.sum_congr rfl fun d _ => ?_
  rw [ha, ha, EReal.coe_mul]

theorem unit_eq (ha : ∀ k, e k = (a k : EReal)) (i : Fin 8192) (d : Fin 512)
    (hn : Real.sqrt (rsq a i) ≠ 0) :
    unit e i d = ((a (ix2 i d) * (1 / Real.sqrt (rsq a i)) : ℝ) : EReal) := by
  unfold unit
  rw [norm_eq ha, Ideal.div_coe hn, one_mul, ha, EReal.coe_mul]

/-- The inner product of two scaled rows is the Gram entry divided by the product of the norms. -/
theorem scaled_inner_eq (ha : ∀ k, e k = (a k : EReal)) (i j : Fin 8192)
    (hi : Real.sqrt (rsq a i) ≠ 0) (hj : Real.sqrt (rsq a j) ≠ 0) :
    (∑ d : Fin 512, unit e i d * unit e j d) = Ideal.div (gram e i j) (norm e i * norm e j) := by
  rw [gram_eq ha, norm_eq ha, norm_eq ha, ← EReal.coe_mul, Ideal.div_coe (mul_ne_zero hi hj),
    ← EReal.coe_mul]
  have h : ∀ d : Fin 512, unit e i d * unit e j d =
      ((a (ix2 i d) * (1 / Real.sqrt (rsq a i)) * (a (ix2 j d) * (1 / Real.sqrt (rsq a j))) : ℝ) : EReal) := by
    intro d
    rw [unit_eq ha i d hi, unit_eq ha j d hj, ← EReal.coe_mul]
  rw [Finset.sum_congr rfl fun d _ => h d, ← coe_sum]
  refine congrArg _ ?_
  unfold rgram
  rw [Finset.sum_mul]
  refine Finset.sum_congr rfl fun d _ => ?_
  ring

end Real

/-- On real entries with every row norm positive, the block-wise loss of the scaled rows is the loss. -/
theorem blockLoss_eq_loss (e : Emb) (s : Sim) (he : IsReal e) (_hs : IsReal s)
    (hpos : ∀ i, 0 < norm e i) : blockLoss e s = loss e s := by
  choose a ha using he
  have hn : ∀ i, Real.sqrt (rsq a i) ≠ 0 := by
    intro i
    have h := hpos i
    rw [norm_eq ha] at h
    exact ne_of_gt (by exact_mod_cast h)
  unfold blockLoss loss
  refine congrArg Neg.neg ?_
  refine (sum_row (fun i => ∑ j : Fin 8192,
    (∑ d : Fin 512, unit e i d * unit e j d) * s (ix2 i j))).trans ?_
  refine Finset.sum_congr rfl fun i _ => Finset.sum_congr rfl fun j _ => ?_
  rw [scaled_inner_eq ha i j (hn i) (hn j)]

end Cert.Spec

end
-- ==== Proof.PreFacts.lean ====
/-
  What the precondition says of the inputs, read back from its printed form: every entry of the embedding and of the
  similarity matrix is a real number, and every row of the embedding has a positive Euclidean norm.

  The precondition is a conjunction of four tests, each an "and" over all entries of a comparison. An "and" that came
  out true was true at every entry. At an entry of the first two tests the comparison is |x| < +∞, which an extended
  real satisfies only if it is a real number. At row i of the fourth test it is 0 < √(0 + ∑ d, e i d · e i d), the
  row's norm.
-/
import proofs.«173529_j70222715290004_2_alg».proof.Pre_finite_inputs
import proofs.«173529_j70222715290004_2_alg».proof.Proof.Gen.Pre_finite_inputs
import proofs.«173529_j70222715290004_2_alg».proof.Proof.Spec
import Idealize.ShloMosaic.Lib.ReduceAll
import Idealize.ShloMosaic.PureOps.Ideal.Laws

noncomputable section

open scoped BigOperators

namespace Cert.PreFacts

open Idealize.ShloMosaic Idealize.ShloMosaic.ValueIdx Cert.Pre_finite_inputs

/-- The shape of rank zero has one index. -/
instance : Subsingleton S_.Idx := ⟨fun a b => funext fun d => d.elim0⟩

/-- The word of the positive infinity denotes +∞. -/
theorem ofBits_inf : Ideal.ofBits .f32 0x7F800000#32 = ⊤ := by
  simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- A comparison "greater than the zero word" that came out true says the number is positive. -/
theorem pos_of_cmp_ogt (x : EReal) (h : Ideal.cmp .ogt x (Ideal.ofBits .f32 0x00000000#32) = 1#1) : 0 < x := by
  rw [Ideal.ofBits_zero_f32] at h
  by_contra hx
  simp [Ideal.cmp, hx] at h

/-- The sum along a row of the entrywise square, from the zero word, is the row's sum of squares. -/
theorem rowSum_eq [Facts] (e : FVec Ideal S8192x512 .f32) (i : Fin 8192) :
    Host.reduceAdd (F := Ideal) (mulf e e) (constant (F := Ideal) S_ .f32 0x00000000#32)
      Facts.reducesTo_S8192x512_S8192_d1 Facts.h_S_ (ix1 i) = Cert.Spec.sq e i := by
  simp only [Host.reduceAdd, Ideal.hostReduceAdd_def]
  rw [Ideal.hostReduceAdd_single Facts.reducesTo_S8192x512_S8192_d1 (by decide), constant_apply,
    Ideal.ofBits_zero_f32, zero_add]
  unfold Cert.Spec.sq
  refine Finset.sum_congr rfl fun k _ => ?_
  rw [mulf_apply]
  exact congrArg (fun j => e j * e j)
    (funext fun a => Fin.ext (by match a with | ⟨0, _⟩ => rfl | ⟨1, _⟩ => rfl))

/-- The precondition gives: real entries in both matrices, and a positive norm in every row of the embedding. -/
theorem decode [Facts] (e : FVec Ideal S8192x512 .f32) (s : FVec Ideal S8192x8192 .f32)
    (b : FVec Ideal S1 .f32) (h : fn (F := Ideal) e s b = fun _ => 1#1) :
    Cert.Spec.IsReal e ∧ Cert.Spec.IsReal s ∧ ∀ i : Fin 8192, 0 < Cert.Spec.norm e i := by
  have h0 := congrFun h ValueIdx.ix0
  dsimp only [fn, fn_part1] at h0
  obtain ⟨h123, h4⟩ := IntOp.andi_eq_one.1 h0
  obtain ⟨h12, _⟩ := IntOp.andi_eq_one.1 h123
  obtain ⟨h1, h2⟩ := IntOp.andi_eq_one.1 h12
  refine ⟨fun k => ?_, fun k => ?_, fun i => ?_⟩
  · exact real_of_abs_lt (e k) (Host.reduce_andi_all _ _ _ _ _ h1 k)
  · exact real_of_abs_lt (s k) (Host.reduce_andi_all _ _ _ _ _ h2 k)
  · have hi := pos_of_cmp_ogt _ (Host.reduce_andi_all _ _ _ _ _ h4 (ix1 i))
    rw [show Cert.Spec.norm e i = Ideal.sqrt (Cert.Spec.sq e i) from rfl, ← rowSum_eq e i]
    exact hi

end Cert.PreFacts

end
-- ==== Proof.lean ====
/-
  A similarity loss over an embedding matrix `e` (8192 rows of 512 entries) and a similarity matrix `s` (8192 × 8192),
  computed two ways on the extended reals.

  The reference forms the Gram matrix `⟨e i, e j⟩`, divides it entrywise by the product `‖e i‖ · ‖e j‖` of the two rows'
  Euclidean norms, multiplies by `s`, sums everything and negates. The kernel first divides every row by its norm
  (host operations), then for each of 16 blocks of 512 rows takes the inner products of the block's normalised rows
  with all normalised rows (one matrix product), multiplies by the block's rows of `s` and sums to one number per
  block; the host adds the 16 numbers and negates.

  The precondition asks that every entry of the three inputs is finite and that every row norm is positive. Under it
  every quantity is a real number, a normalised inner product is the inner product divided by both norms, and the 16
  blocks of 512 rows enumerate the rows once each: the two results are one real number (`Spec.blockLoss_eq_loss`).
  Without the norms' positivity the claim fails: on a zero row the reference forms 0 / 0 and the kernel 0 · (1 / 0),
  which are different extended reals.

  The three frames: the word-level kernel and its idealization run to the end through the pipeline library's launch
  for a program of host operations, one kernel region, host operations, the two windows that stage the same array
  each holding half of its share; the reference is host operations only. No operation writes an argument.
  The idealization pass rewrote nothing, so the idealized kernel is the kernel's own text read on the extended reals.
-/
import proofs.«173529_j70222715290004_2_alg».proof.Defs
import proofs.«173529_j70222715290004_2_alg».proof.Proof.Gen.Kernel
import proofs.«173529_j70222715290004_2_alg».proof.Proof.Gen.KernelIdeal
import proofs.«173529_j70222715290004_2_alg».proof.Proof.Gen.ReferenceIdeal
import proofs.«173529_j70222715290004_2_alg».proof.Proof.Gen.Pre_finite_inputs
import proofs.«173529_j70222715290004_2_alg».proof.Proof.Gen.ReferenceIdeal.Read
import proofs.«173529_j70222715290004_2_alg».proof.Proof.KRun
import proofs.«173529_j70222715290004_2_alg».proof.Proof.KIRun
import proofs.«173529_j70222715290004_2_alg».proof.Proof.KIValue
import proofs.«173529_j70222715290004_2_alg».proof.Proof.RefLoss
import proofs.«173529_j70222715290004_2_alg».proof.Proof.LossAlgebra
import proofs.«173529_j70222715290004_2_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its three arguments as they were. -/
theorem frame_k : Cert.frame_Kernel := fun m ρ _ =>
  (θ_run Cert.Kernel.defs _ _).mono (fun _ h c => (h c).2) (Cert.Kernel.Hand.run_main (F := Bits) m ρ)

/-- So does its reading on the extended reals. -/
theorem frame_ki : Cert.frame_KernelIdeal := fun m ρ _ =>
  (θ_run Cert.KernelIdeal.defs _ _).mono (fun _ h c => (h c).2) (Cert.KernelIdeal.Hand.run_main (F := Ideal) m ρ)

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- On the extended reals, from memories agreeing on the arguments, both programs end with the same number in the
    result buffer: the kernel's is the loss by blocks of normalised rows, the reference's the loss with the Gram
    matrix divided by the norms' products, and under the precondition (real entries, positive row norms) these
    are equal. -/
theorem algebraic : Cert.algebraic_KernelIdeal_ReferenceIdeal := by
  intro m ρ m' ρ' hpre hagree
  refine ⟨fun c _ => Cert.Spec.blockLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (Cert.KernelIdeal.Hand.result_eq m c), (h c).2⟩)
      (Cert.KernelIdeal.Hand.run_main (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v12_eq, Cert.RefLoss.result_eq, (hagree c).1, (hagree c).2.1]
    obtain ⟨he, hs, hp⟩ := Cert.PreFacts.decode _ _ _ (hpre c)
    funext _
    exact (Cert.Spec.blockLoss_eq_loss _ _ he hs hp).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
